-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S8192x8192 : Shape := ⟨2, ![8192, 8192]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S67108864 .f32) (main_arg1 : FVec F S67108864 .f32) (main_arg2 : FVec F S8192x8192 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  let main_v4 : FVec F S67108864 .f32 := Host.absf main_arg1
  let main_cst_0 : FVec F S_ .f32 := constant S_ .f32 0x7F800000#32
  let main_v5 : FVec F S67108864 .f32 := broadcastInDim S67108864 ![] bcast_S_S67108864 main_cst_0
  let main_v6 : IVec S67108864 1 := cmpf .olt main_v4 main_v5
  let main_c_1 : IVec S_ 1 := constantI S_ 1 1#1
  let main_v7 : IVec S_ 1 := (fun x v => Host.reduce IntOp.andi x v reducesTo_S67108864_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S67108864 : Shape := ⟨1, ![67108864]⟩
abbrev S8192x8192 : Shape := ⟨2, ![8192, 8192]⟩
abbrev S2x8x128 : Shape := ⟨3, ![2, 8, 128]⟩
abbrev S128x8192 : Shape := ⟨2, ![128, 8192]⟩
abbrev S1x8x128 : Shape := ⟨3, ![1, 8, 128]⟩
abbrev S8x128 : Shape := ⟨2, ![8, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S2x8x128, .f32⟩
  | .hbm, ⟨6, _⟩ => ⟨S_, .f32⟩
  | .hbm, ⟨7, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S1x8x128, .f32⟩
  | .local _ .vmem, ⟨7, _⟩ => ⟨S1x8x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S67108864_S8192x8192 : S67108864.ShapeCasts S8192x8192
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  natLt_1_32 : 1 < 32
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S67108864 : Shape := ⟨1, ![67108864]⟩
abbrev S8192x8192 : Shape := ⟨2, ![8192, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | .hbm, ⟨2, _⟩ => ⟨S8192x8192, .f32⟩
  | .hbm, ⟨3, _⟩ => ⟨S_, .f32⟩
  | .hbm, ⟨4, _⟩ => ⟨S67108864, .f32⟩
  | .hbm, ⟨5, _⟩ => ⟨S67108864, .i1⟩
  | .hbm, ⟨6, _⟩ => ⟨S8192x8192, .i1⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S8192x8192, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S8192x8192, .i32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S_, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)
  shapeCasts_S67108864_S8192x8192 : S67108864.ShapeCasts S8192x8192
  bcast_S_S8192x8192 : S_.BroadcastsInDim S8192x8192 (![] : Fin 0 → Fin S8192x8192.rank)
  natLt_1_32 : 1 < 32
  reducesTo_S8192x8192_S_d0_1 : S8192x8192.ReducesTo [0, 1] S_
  h_S_ : 0 < S_.numel

variable [Facts₀]

class Facts : Prop extends Facts₀ where

variable [Facts]
-- ==== Proof.LibCount.lean ====
/-
  General lemmas about counting with one-bit words, used to compare a float sum of 0/1 masks with an integer count.

  * a finite sum of reals, coerced to the extended reals, is the sum of the coerced terms;
  * a one-bit word zero-extended to 32 bits, read signed or unsigned, is the bit;
  * a wrapping 32-bit sum of zero-extended bits is the number of set bits as long as that number is below 2^31,
    so that the host's integer `reduce add` of a 0/1 array followed by a signed conversion is the exact count;
  * a sum over a rank-3 index set is the triple sum over its coordinates;
  * a sum over 8192 rows is the sum over 64 blocks of 128 consecutive rows.
-/
import Idealize.ShloMosaic.PureOps.Ideal
import Idealize.ShloMosaic.PureOps.Ideal.Laws
import Idealize.ShloMosaic.PureOps.Reduce
import Idealize.ShloMosaic.Lib.ValueIdx

noncomputable section

namespace Cert.LibCount

open Idealize.ShloMosaic Idealize.ShloMosaic.ValueIdx

/-! ## Finite sums of reals in the extended reals -/

/-- The coercion of a finite sum of reals is the sum of the coercions. -/
theorem coe_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- A finite sum of naturals, as an extended real, is the sum of the terms as extended reals. -/
theorem natCast_sum {ι : Type*} (S : Finset ι) (n : ι → ℕ) :
    (((∑ i ∈ S, n i : ℕ) : ℝ) : EReal) = ∑ i ∈ S, (((n i : ℕ) : ℝ) : EReal) := by
  rw [Nat.cast_sum, coe_sum]

/-! ## One-bit words -/

/-- A one-bit word is at most one. -/
theorem bit_le_one (b : BitVec 1) : b.toNat ≤ 1 := by revert b; decide

/-- Zero-extended to 32 bits, a one-bit word keeps its value … -/
theorem toNat_setWidth_bit (b : BitVec 1) : (b.setWidth 32).toNat = b.toNat := by revert b; decide

/-- … also when the 32-bit word is read as a signed integer. -/
theorem toInt_setWidth_bit (b : BitVec 1) : (b.setWidth 32).toInt = (b.toNat : ℤ) := by revert b; decide

/-- The value of a one-bit word is one exactly when the word is `1`. -/
theorem bit_toNat (b : BitVec 1) : b.toNat = if b = 1#1 then 1 else 0 := by revert b; decide

/-! ## A wrapping sum of bits is the count, below 2^31 -/

/-- The value of a wrapping 32-bit sum is the sum of the values modulo 2^32. -/
theorem toNat_fold_addi {ι : Type*} (S : Finset ι) (f : ι → BitVec 32) :
    (S.fold IntOp.addi 0#32 f).toNat = (∑ i ∈ S, (f i).toNat) % 4294967296 := by
  classical
  induction S using Finset.induction_on with
  | empty => simp
  | insert a S ha ih =>
    rw [Finset.fold_insert ha, Finset.sum_insert ha]
    show (f a + S.fold IntOp.addi 0#32 f).toNat = _
    rw [BitVec.toNat_add, ih]
    omega

/-- The host's integer sum over every axis of a 0/1 array given as one-bit words zero-extended to 32 bits, started
    from zero and read as a signed integer, is the number of set bits — provided that number is below 2^31, so that
    the 32-bit sum neither wraps nor turns negative. -/
theorem hostCount_toInt {s t u : Shape} {axes : List (Fin s.rank)} [Subsingleton t.Idx]
    (x : s.Idx → BitVec 1) (hlt : 1 < 32) (h : s.ReducesTo axes t) (hu : 0 < u.numel) (j : t.Idx)
    (hb : (∑ i, (x i).toNat) < 2147483648) :
    (Host.reduce IntOp.addi (extui 32 x hlt) (constantI u 32 0#32) h hu j).toInt = ((∑ i, (x i).toNat : ℕ) : ℤ) := by
  classical
  rw [Host.reduce_eq_fold, Finset.filter_true_of_mem (fun i _ => Subsingleton.elim _ _)]
  show (Finset.univ.fold IntOp.addi 0#32 (extui 32 x hlt)).toInt = _
  have hn : (Finset.univ.fold IntOp.addi 0#32 (extui 32 x hlt)).toNat = ∑ i, (x i).toNat := by
    rw [toNat_fold_addi]
    have e : ∀ i, (extui 32 x hlt i).toNat = (x i).toNat := fun i => toNat_setWidth_bit (x i)
    simp only [e]
    omega
  rw [BitVec.toInt_eq_toNat_of_lt (by rw [hn]; omega), hn]

/-- So, converted to a float at the ideal values, it is that count as an extended real. -/
theorem hostCount_sitofp {s t u : Shape} {axes : List (Fin s.rank)} [Subsingleton t.Idx]
    (x : s.Idx → BitVec 1) (hlt : 1 < 32) (h : s.ReducesTo axes t) (hu : 0 < u.numel) (j : t.Idx)
    (hb : (∑ i, (x i).toNat) < 2147483648) :
    (sitofp .f32 (Host.reduce IntOp.addi (extui 32 x hlt) (constantI u 32 0#32) h hu) : FVec Ideal t .f32) j
      = (((∑ i, (x i).toNat : ℕ) : ℝ) : EReal) := by
  show (((Host.reduce IntOp.addi (extui 32 x hlt) (constantI u 32 0#32) h hu j).toInt : ℝ) : EReal) = _
  rw [hostCount_toInt x hlt h hu j hb]
  norm_cast

/-- A bit zero-extended and converted to a float at the ideal values is the bit as an extended real. -/
theorem sitofp_bit (b : BitVec 1) : (FloatOps.sitofp (F := Ideal) .f32 (b.setWidth 32)) = (((b.toNat : ℕ) : ℝ) : EReal) := by
  show ((((b.setWidth 32).toInt : ℤ) : ℝ) : EReal) = _
  rw [toInt_setWidth_bit]
  norm_cast

/-! ## Sums over index sets by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- A sum over 8192 rows is the sum over 64 blocks of 128 consecutive rows: row `128 t + r` is row `r` of block `t`. -/
theorem sum_rows_blocks {M : Type*} [AddCommMonoid M] (g : Fin 8192 → M) :
    ∑ R, g R = ∑ t : Fin 64, ∑ r : Fin 128, g ⟨t.val * 128 + r.val, by have := t.isLt; have := r.isLt; omega⟩ := by
  rw [← Fintype.sum_prod_type (f := fun p : Fin 64 × Fin 128 =>
    g ⟨p.1.val * 128 + p.2.val, by have := p.1.isLt; have := p.2.isLt; omega⟩)]
  exact (Fintype.sum_equiv (finProdFinEquiv (m := 64) (n := 128)) _ g
    (fun p => congrArg g (Fin.ext (by simp only [finProdFinEquiv_apply_val]; omega)))).symm

/-- The number of indices of a rank-2 shape is the product of its extents. -/
theorem card_idx2 {n0 n1 : Nat} : Fintype.card (⟨2, ![n0, n1]⟩ : Shape).Idx = n0 * n1 := by
  rw [Fintype.card_congr (idxEquiv2 (n0 := n0) (n1 := n1)), Fintype.card_prod, Fintype.card_fin, Fintype.card_fin]

/-- A sum of one-bit words over a finite type is at most the number of its elements. -/
theorem sum_bits_le_card {ι : Type*} [Fintype ι] (x : ι → BitVec 1) : (∑ i, (x i).toNat) ≤ Fintype.card ι := by
  calc (∑ i, (x i).toNat) ≤ ∑ _i : ι, 1 := Finset.sum_le_sum fun i _ => bit_le_one (x i)
    _ = Fintype.card ι := by simp

end Cert.LibCount

end
-- ==== Proof.Pieces.lean ====
/-
  What one run of the body leaves in the output's staging buffer, as a term of the loaded blocks.

  At the first point of each row of the grid the body stores the zero tile, reads it back, and stores the read-back tile
  plus the point's contribution; at every other point it reads the tile the previous point left and stores that plus
  the contribution. In both cases the last store covers the whole buffer, so the buffer ends holding that store's
  payload: the accumulating payload applied to the contribution payload of the three input blocks and to the tile
  read back (the zero payload in the first case, the previous contents in the second). Stated at any float instance.
-/
import proofs.«163176_j8358006358520_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Soma

open Cert.KernelIdeal Cert.KernelIdeal.Gen

variable {F : FTy → Type} [FloatOps F]

/-- The zero offsets of a rank-2 whole-buffer access. -/
theorem hz2 : (![0, 0] : Fin 2 → Nat) = fun _ => 0 := funext fun a => by fin_cases a <;> rfl
/-- The zero offsets of a rank-3 whole-buffer access. -/
theorem hz3 : (![0, 0, 0] : Fin 3 → Nat) = fun _ => 0 := funext fun a => by fin_cases a <;> rfl

/-- A point that is not the first of its row: the buffer held `xo`; it ends holding `xo` plus the contribution of the
    blocks `x0`, `x1`, `x2` (the body loads window 0, then window 2, then window 1). -/
theorem out_B (c : Dev nD) (i : grid0.Coords) (a2 : Memref sig .tc .vmem S128x8192 .f32) (h2 : a2.IsWhole)
    (a3 : Memref sig .tc .vmem S128x8192 .f32) (h3 : a3.IsWhole) (a4 : Memref sig .tc .vmem S128x8192 .f32) (h4 : a4.IsWhole)
    (a5 : Memref sig .tc .vmem S1x8x128 .f32) (h5 : a5.IsWhole) (hc : ¬cond0_0 i)
    (x0 x1 x2 : Vec F S128x8192 .f32) (xo : Vec F S1x8x128 .f32) :
    out0_B_3 c i a2 h2 a3 h3 a4 h4 a5 h5 hc x0 x1 x2 xo = k0_pay1 (k0_pay3 x0 x2 x1) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S128x8192) hz2, View.ld_unit_zero (S := S1x8x128) hz3]

/-- The first point of a row: the buffer is reset to the zero payload, read back, and ends holding that plus the
    contribution of the blocks. -/
theorem out_A (c : Dev nD) (i : grid0.Coords) (a2 : Memref sig .tc .vmem S128x8192 .f32) (h2 : a2.IsWhole)
    (a3 : Memref sig .tc .vmem S128x8192 .f32) (h3 : a3.IsWhole) (a4 : Memref sig .tc .vmem S128x8192 .f32) (h4 : a4.IsWhole)
    (a5 : Memref sig .tc .vmem S1x8x128 .f32) (h5 : a5.IsWhole) (hc : cond0_0 i)
    (x0 x1 x2 : Vec F S128x8192 .f32) :
    out0_A_3 c i a2 h2 a3 h3 a4 h4 a5 h5 hc x0 x1 x2 = k0_pay1 (k0_pay3 x0 x2 x1) k0_pay2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread,
    View.ld_unit_zero (S := S128x8192) hz2]

end Cert.KernelIdeal.Soma

end
-- ==== Proof.Payload.lean ====
/-
  The body's arithmetic at the ideal values, read at an index.

  One grid point loads a block of 128 rows of each of the three 8192 × 8192 arrays. With `s(r, c) = 1` where the first
  array's entry exceeds 1/2 or the third's exceeds 0 (else 0) and `f(r, c) = 1` where the second's exceeds 0, the body
  forms `δ = ∑ r, ∑ c, s(r, c) − ∑ r, ∑ c, f(r, c)` (each a lane sum followed by a sublane sum of a keep-dims column),
  multiplies it by the 0/1 mask of the cell (0, 0) of an 8 × 128 tile, and adds the product to the tile the output
  buffer holds. So a tile that is `v` at cell (0, 0) and zero elsewhere becomes `v + δ` at cell (0, 0) and zero elsewhere
  (`0 · δ = 0`, `1 · δ = δ`, and `δ` is a difference of two natural numbers, hence finite).
-/
import proofs.«163176_j8358006358520_2_alg».proof.Proof.Gen.KernelIdeal.Skeleton
import proofs.«163176_j8358006358520_2_alg».proof.Proof.LibCount
import Idealize.ShloMosaic.Lib.Pipeline.Value
import Idealize.ShloMosaic.Lib.ValueLayout
import Idealize.ShloMosaic.Lib.Affine

noncomputable section

namespace Cert.KernelIdeal.Soma

open Cert.KernelIdeal Cert.KernelIdeal.Gen Idealize.ShloMosaic Idealize.ShloMosaic.ValueIdx Cert.LibCount

/-! ## The quantities of one block -/

/-- Entry (r, c) of a block counts as a synapse: the first array's entry exceeds 1/2, or the third's exceeds 0. -/
def synB (v0 v2 : FVec Ideal S128x8192 .f32) (r : Fin 128) (c : Fin 8192) : BitVec 1 :=
  IntOp.ori (FloatOps.cmpf .ogt (v0 (ix2 r c)) (Ideal.ofBits .f32 0x3F000000#32))
    (FloatOps.cmpf .ogt (v2 (ix2 r c)) (Ideal.ofBits .f32 0x00000000#32))

/-- Entry (r, c) of a block counts as a feature: the second array's entry exceeds 0. -/
def featB (v1 : FVec Ideal S128x8192 .f32) (r : Fin 128) (c : Fin 8192) : BitVec 1 :=
  FloatOps.cmpf .ogt (v1 (ix2 r c)) (Ideal.ofBits .f32 0x00000000#32)

/-- The number of set bits of a 128 × 8192 table of bits. -/
def blkCount (b : Fin 128 → Fin 8192 → BitVec 1) : ℕ := ∑ r : Fin 128, ∑ c : Fin 8192, (b r c).toNat

/-- One block's contribution: its synapse count minus its feature count, a real number. -/
def blkDelta (v0 v1 v2 : FVec Ideal S128x8192 .f32) : ℝ :=
  ((blkCount (synB v0 v2) : ℕ) : ℝ) - ((blkCount (featB v1) : ℕ) : ℝ)

/-- A [1, 8, 128] tile holding the real `v` at cell (0, 0) and zero elsewhere. -/
def cell (v : ℝ) : FVec Ideal S1x8x128 .f32 :=
  fun j => if (j 1).val = 0 ∧ (j 2).val = 0 then ((v : ℝ) : EReal) else 0

/-- The tile read at a cell given by its coordinates. -/
theorem cell_apply (v : ℝ) (u : Fin 1) (a : Fin 8) (b : Fin 128) :
    cell v (ix3 u a b) = if a.val = 0 ∧ b.val = 0 then ((v : ℝ) : EReal) else 0 := rfl

/-! ## The non-pointwise operations at an index -/

/-- A lane sum of a 128 × 8192 vector, kept as a column, then a sublane sum of that column, kept as a 1 × 1 vector, is at
    its one entry the double sum over rows and columns. -/
theorem rowcol_sum (v : FVec Ideal S128x8192 .f32) (h1 : S128x8192.Reduces [1] S128) (h2 : S128x1.Reduces [0] S1)
    (hφ : FKind.Formats .f32) (hacc : (0x00000000#32 : BitVec 32) = FKind.add.neutral .f32 hφ)
    (hs1 : S128.ShapeCasts S128x1) (hs2 : S1.ShapeCasts S1x1) :
    shapeCast S1x1 (multiReduction .add [0] S1 (shapeCast S128x1 (multiReduction .add [1] S128 v 0x00000000#32 h1 hφ hacc) hs1)
        0x00000000#32 h2 hφ hacc) hs2 (ix2 (0 : Fin 1) (0 : Fin 1))
      = ∑ r : Fin 128, ∑ c : Fin 8192, v (ix2 r c) := by
  refine (shapeCast_a_1a_apply _ hs2 0 0).trans ?_
  refine (Ideal.multiReduction_add_single _ _ h2 hφ hacc (ix1 0)).trans ?_
  refine Finset.sum_congr rfl fun r _ => ?_
  refine (shapeCast_apply _ hs1 _ (ix1 r) ?_).trans ?_
  · rw [Shape.rowMajor_val_one, Shape.rowMajor_val_two]
    show r.val = r.val * 1 + 0
    omega
  refine (Ideal.multiReduction_add_single v _ h1 hφ hacc (ix1 r)).trans ?_
  refine Finset.sum_congr rfl fun c _ => congrArg v ?_
  funext a
  match a with
  | ⟨0, _⟩ => rfl
  | ⟨1, _⟩ => rfl

/-- A 1 × 1 vector broadcast to 8 × 128 reads its one entry everywhere. -/
theorem bcast11_apply (w : FVec Ideal S1x1 .f32) (h : S1x1.Broadcasts S8x128) (a : Fin 8) (b : Fin 128) :
    broadcastTo S8x128 w h (ix2 a b) = w (ix2 (0 : Fin 1) (0 : Fin 1)) := by
  refine broadcastTo_apply w h (ix2 a b) (ix2 (0 : Fin 1) (0 : Fin 1)) fun ax => ?_
  match ax with
  | ⟨0, _⟩ => rfl
  | ⟨1, _⟩ => rfl

/-- A 32-bit word made from a natural below 2^32 compares equal to zero exactly when the natural is zero. -/
theorem cmpi_eq_ofNat_zero (n : ℕ) (hn : n < 4294967296) : IntOp.cmpi .eq (BitVec.ofNat 32 n) 0#32 = 1#1 ↔ n = 0 := by
  constructor
  · intro h
    by_contra hne
    have hb : (BitVec.ofNat 32 n == 0#32) = false := by
      rw [beq_eq_false_iff_ne]
      intro e
      have := congrArg BitVec.toNat e
      simp only [BitVec.toNat_ofNat, BitVec.toNat_zero] at this
      omega
    unfold IntOp.cmpi at h
    simp [hb] at h
  · rintro rfl
    rfl

/-- The tile's mask — both iotas zero — as a float: 1 at cell (0, 0), else 0. -/
theorem mask_apply (h0 : S8x128.Iotas .tc 32 [0]) (h1 : S8x128.Iotas .tc 32 [1]) (hlt : 1 < 32) (a : Fin 8) (b : Fin 128) :
    (sitofp .f32 (extui 32 (andi (cmpi .eq (iota .tc S8x128 32 [0] h0) (broadcast S8x128 0#32))
        (cmpi .eq (iota .tc S8x128 32 [1] h1) (broadcast S8x128 0#32))) hlt) : FVec Ideal S8x128 .f32) (ix2 a b)
      = (((if a.val = 0 ∧ b.val = 0 then 1 else 0 : ℕ) : ℝ) : EReal) := by
  show FloatOps.sitofp (F := Ideal) .f32 ((IntOp.andi (IntOp.cmpi .eq (iota .tc S8x128 32 [0] h0 (ix2 a b)) 0#32)
    (IntOp.cmpi .eq (iota .tc S8x128 32 [1] h1 (ix2 a b)) 0#32)).setWidth 32) = _
  rw [iota_single_apply, iota_single_apply, sitofp_bit, bit_toNat]
  have ha : a.val < 4294967296 := by have := a.isLt; omega
  have hb : b.val < 4294967296 := by have := b.isLt; omega
  have e : (IntOp.andi (IntOp.cmpi .eq (BitVec.ofNat 32 ((ix2 a b) (0 : Fin 2)).val) 0#32)
      (IntOp.cmpi .eq (BitVec.ofNat 32 ((ix2 a b) (1 : Fin 2)).val) 0#32) = 1#1) ↔ (a.val = 0 ∧ b.val = 0) := by
    rw [IntOp.andi_eq_one]
    exact and_congr (cmpi_eq_ofNat_zero a.val ha) (cmpi_eq_ofNat_zero b.val hb)
  simp only [e]

/-! ## The stored payloads -/

/-- The reset stores the zero tile. -/
theorem pay2_eq : k0_pay2 (F := Ideal) = cell 0 := by
  funext j
  show Ideal.ofBits .f32 0x00000000#32 = _
  rw [Ideal.ofBits_zero_f32]
  unfold cell
  split <;> simp

/-- The accumulating store: the tile read back plus the masked contribution, cell by cell. -/
theorem pay1_apply (v39 : FVec Ideal S8x128 .f32) (v40 : FVec Ideal S1x8x128 .f32) (u : Fin 1) (a : Fin 8) (b : Fin 128) :
    k0_pay1 (F := Ideal) v39 v40 (ix3 u a b) = v40 (ix3 (0 : Fin 1) a b) + v39 (ix2 a b) := by
  unfold k0_pay1
  refine (shapeCast_ab_1ab_apply _ _ u a b).trans ?_
  refine (addf_apply _ _ _).trans ?_
  exact congrArg (· + v39 (ix2 a b)) (shapeCast_1ab_ab_apply v40 _ a b)

/-- One synapse entry as the kernel computes it: the bit, zero-extended, converted. -/
theorem syn_entry (x0 x2 : FVec Ideal S128x8192 .f32) (h : S128x8192.ShapeCasts S128x8192) (hlt : 1 < 32) (r : Fin 128) (c : Fin 8192) :
    (sitofp .f32 (extui 32 (ori (cmpf .ogt (shapeCast S128x8192 x0 h) (broadcast S128x8192 (Scalar.ofBits .f32 0x3F000000#32)))
        (cmpf .ogt x2 (broadcast S128x8192 (Scalar.ofBits .f32 0x00000000#32)))) hlt) : FVec Ideal S128x8192 .f32) (ix2 r c)
      = ((((synB x0 x2 r c).toNat : ℕ) : ℝ) : EReal) := by
  rw [shapeCast_self]
  exact sitofp_bit _

/-- One feature entry as the kernel computes it. -/
theorem feat_entry (x1 : FVec Ideal S128x8192 .f32) (h : S128x8192.ShapeCasts S128x8192) (hlt : 1 < 32) (r : Fin 128) (c : Fin 8192) :
    (sitofp .f32 (extui 32 (cmpf .ogt (shapeCast S128x8192 x1 h) (broadcast S128x8192 (Scalar.ofBits .f32 0x00000000#32))) hlt)
        : FVec Ideal S128x8192 .f32) (ix2 r c)
      = ((((featB x1 r c).toNat : ℕ) : ℝ) : EReal) := by
  rw [shapeCast_self]
  exact sitofp_bit _

/-- A double sum of naturals read as extended reals is the natural double sum read as an extended real. -/
theorem blk_natCast (b : Fin 128 → Fin 8192 → BitVec 1) :
    (∑ r : Fin 128, ∑ c : Fin 8192, ((((b r c).toNat : ℕ) : ℝ) : EReal)) = (((blkCount b : ℕ) : ℝ) : EReal) := by
  unfold blkCount
  rw [natCast_sum]
  exact Finset.sum_congr rfl fun r _ => (natCast_sum _ _).symm

/-- The contribution of one point, read at a cell of the tile: the mask times the block's count difference. -/
theorem pay3_apply (x0 x2 x1 : FVec Ideal S128x8192 .f32) (a : Fin 8) (b : Fin 128) :
    k0_pay3 (F := Ideal) x0 x2 x1 (ix2 a b)
      = (((if a.val = 0 ∧ b.val = 0 then 1 else 0 : ℕ) : ℝ) : EReal) * ((blkDelta x0 x1 x2 : ℝ) : EReal) := by
  unfold k0_pay3
  dsimp only
  refine (mulf_apply _ _ _).trans ?_
  refine congrArg₂ (fun p q : EReal => p * q) (mask_apply _ _ _ a b) ?_
  refine (bcast11_apply _ _ a b).trans ?_
  refine (congrFun (shapeCast_self _ _) _).trans ?_
  refine (subf_apply _ _ _).trans ?_
  unfold blkDelta
  rw [EReal.coe_sub]
  refine congrArg₂ (fun p q : EReal => p - q) ?_ ?_
  · refine (rowcol_sum _ _ _ _ _ _ _).trans ?_
    refine Eq.trans (Finset.sum_congr rfl fun r _ => Finset.sum_congr rfl fun c _ => syn_entry x0 x2 _ _ r c) ?_
    exact blk_natCast (synB x0 x2)
  · refine (rowcol_sum _ _ _ _ _ _ _).trans ?_
    refine Eq.trans (Finset.sum_congr rfl fun r _ => Finset.sum_congr rfl fun c _ => feat_entry x1 _ _ r c) ?_
    exact blk_natCast (featB x1)

/-! ## A tile with one live cell, through the two stores -/

/-- Accumulating one point's contribution onto a tile that is `v` at cell (0, 0) and zero elsewhere leaves `v + δ` there
    and zero elsewhere. -/
theorem pay1_cell (x0 x2 x1 : FVec Ideal S128x8192 .f32) (v : ℝ) :
    k0_pay1 (F := Ideal) (k0_pay3 x0 x2 x1) (cell v) = cell (v + blkDelta x0 x1 x2) := by
  funext j
  obtain ⟨u, a, b, rfl⟩ : ∃ (u : Fin 1) (a : Fin 8) (b : Fin 128), j = ix3 u a b := ⟨j 0, j 1, j 2, eq_ix3 j⟩
  rw [pay1_apply, pay3_apply, cell_apply, cell_apply]
  by_cases hab : a.val = 0 ∧ b.val = 0
  · rw [if_pos hab, if_pos hab, if_pos hab, Nat.cast_one, EReal.coe_one, one_mul, EReal.coe_add]
  · rw [if_neg hab, if_neg hab, if_neg hab, Nat.cast_zero, EReal.coe_zero, zero_mul, add_zero]

end Cert.KernelIdeal.Soma

end
-- ==== Proof.Spec.lean ====
/-
  The mathematics that joins the two programs, with no program in sight.

  Three 8192 × 8192 arrays of extended reals are given. An entry is a *synapse* when the first array exceeds 1/2 there or
  the third exceeds 0, and a *feature* when the second exceeds 0. The reference's result is
  `(number of synapses) − (number of features)`. The kernel cuts the rows into 64 blocks of 128, forms each block's
  difference `δ t`, keeps a running sum that restarts at points 0 and 32, and finally adds the two running sums it has
  after points 31 and 63. Since every count is a natural number, all of this is finite arithmetic:
  `∑ t, δ t = (∑ synapses) − (∑ features)` by splitting the row sum into blocks.
-/
import proofs.«163176_j8358006358520_2_alg».proof.Proof.LibCount

noncomputable section

namespace Cert.SomaSpec

open Idealize.ShloMosaic Idealize.ShloMosaic.ValueIdx Cert.LibCount

/-- The shape of the three arrays. -/
abbrev Sq : Shape := ⟨2, ![8192, 8192]⟩

/-- Row `r` of block `t` is row `128 t + r` of the array. -/
def row (t : Fin 64) (r : Fin 128) : Fin 8192 := ⟨t.val * 128 + r.val, by have := t.isLt; have := r.isLt; omega⟩

/-- An entry is a synapse: the first array exceeds 1/2 there, or the third exceeds 0. -/
def synA (A0 A2 : FVec Ideal Sq .f32) (i : Sq.Idx) : BitVec 1 :=
  IntOp.ori (FloatOps.cmpf .ogt (A0 i) (Ideal.ofBits .f32 0x3F000000#32)) (FloatOps.cmpf .ogt (A2 i) (Ideal.ofBits .f32 0x00000000#32))

/-- An entry is a feature: the second array exceeds 0 there. -/
def featA (A1 : FVec Ideal Sq .f32) (i : Sq.Idx) : BitVec 1 :=
  FloatOps.cmpf .ogt (A1 i) (Ideal.ofBits .f32 0x00000000#32)

/-- The number of set bits among the 128 rows of block `t`. -/
def blockCount (b : Sq.Idx → BitVec 1) (t : Fin 64) : ℕ := ∑ r : Fin 128, ∑ c : Fin 8192, (b (ix2 (row t r) c)).toNat

/-- Block `t`'s synapse count minus its feature count. -/
def delta (A0 A1 A2 : FVec Ideal Sq .f32) (t : Fin 64) : ℝ :=
  ((blockCount (synA A0 A2) t : ℕ) : ℝ) - ((blockCount (featA A1) t : ℕ) : ℝ)

/-- The reference's value: the number of synapses minus the number of features, each count an extended real. -/
def total (A0 A1 A2 : FVec Ideal Sq .f32) : EReal :=
  (((∑ i, (synA A0 A2 i).toNat : ℕ) : ℝ) : EReal) - (((∑ i, (featA A1 i).toNat : ℕ) : ℝ) : EReal)

/-- The set bits of the whole array are those of its 64 blocks of rows. -/
theorem count_blocks (b : Sq.Idx → BitVec 1) : ∑ i, (b i).toNat = ∑ t, blockCount b t := by
  rw [sum_idx2, sum_rows_blocks]
  rfl

/-- There are 2^26 entries, so a count of them stays below 2^31. -/
theorem count_lt (b : Sq.Idx → BitVec 1) : (∑ i, (b i).toNat) < 2147483648 := by
  have h := sum_bits_le_card b
  rw [card_idx2] at h
  omega

/-- The blocks' differences add up to the difference of the whole counts. -/
theorem sum_delta (A0 A1 A2 : FVec Ideal Sq .f32) : ((∑ t : Fin 64, delta A0 A1 A2 t : ℝ) : EReal) = total A0 A1 A2 := by
  unfold total delta
  rw [← EReal.coe_sub, Finset.sum_sub_distrib, count_blocks, count_blocks, Nat.cast_sum, Nat.cast_sum]

/-! ## A running sum that restarts every 32 steps -/

/-- The running sum of `d` after step `n`, restarted at every multiple of 32. -/
def acc (d : ℕ → ℝ) : ℕ → ℝ
  | 0 => d 0
  | n + 1 => if (n + 1) % 32 = 0 then d (n + 1) else acc d n + d (n + 1)

/-- At a multiple of 32 the running sum is that step's term alone. -/
theorem acc_reset (d : ℕ → ℝ) (n : ℕ) (h : n % 32 = 0) : acc d n = d n := by
  cases n with
  | zero => rfl
  | succ n => rw [acc, if_pos h]

/-- At any other step it is the previous running sum plus that step's term. -/
theorem acc_step (d : ℕ → ℝ) (n : ℕ) (h : ¬(n + 1) % 32 = 0) : acc d (n + 1) = acc d n + d (n + 1) := by
  rw [acc, if_neg h]

/-- So within the `p`-th stretch of 32 steps it is the sum of the stretch's terms so far. -/
theorem acc_block (d : ℕ → ℝ) (p j : ℕ) (hj : j < 32) : acc d (32 * p + j) = ∑ i ∈ Finset.range (j + 1), d (32 * p + i) := by
  induction j with
  | zero => rw [acc_reset d (32 * p + 0) (by omega), Finset.sum_range_one]
  | succ j ih =>
    have e : 32 * p + (j + 1) = (32 * p + j) + 1 := by omega
    rw [e, acc_step d _ (by omega), ih (by omega), Finset.sum_range_succ (fun i => d (32 * p + i)) (j + 1), e]

/-- A function of the 64 points extended by zero to every natural. -/
def extend (δ : Fin 64 → ℝ) (n : ℕ) : ℝ := if h : n < 64 then δ ⟨n, h⟩ else 0

/-- The two running sums left after steps 31 and 63 add up to the sum over all 64 points. -/
theorem acc_total (δ : Fin 64 → ℝ) : acc (extend δ) 31 + acc (extend δ) 63 = ∑ t, δ t := by
  have h0 := acc_block (extend δ) 0 31 (by omega)
  have h1 := acc_block (extend δ) 1 31 (by omega)
  have e0 : 32 * 0 + 31 = 31 := rfl
  have e1 : 32 * 1 + 31 = 63 := rfl
  rw [e0] at h0
  rw [e1] at h1
  rw [h0, h1]
  have hs := Finset.sum_range_add (extend δ) 32 32
  have e2 : (fun i => extend δ (32 * 0 + i)) = fun i => extend δ i := funext fun i => by rw [Nat.mul_zero, Nat.zero_add]
  have e3 : (fun i => extend δ (32 * 1 + i)) = fun i => extend δ (32 + i) := funext fun i => by rw [Nat.mul_one]
  rw [e2, e3, ← hs, Finset.sum_range (extend δ)]
  exact Finset.sum_congr rfl fun t _ => by unfold extend; rw [dif_pos t.isLt]

end Cert.SomaSpec

end
-- ==== Proof.Accum.lean ====
/-
  What the output's staging buffer holds after each grid point, in closed form.

  Point `n` contributes `δ n`: the synapse count minus the feature count of the three blocks its windows read. The buffer
  is a [1, 8, 128] tile. By induction on the point it is zero away from cell (0, 0), and at cell (0, 0) it is the running sum
  of the `δ`s restarted at points 0 and 32 — the first point of each row of the 2 × 32 grid resets the tile before
  adding, every other point adds onto what the point before left.
-/
import proofs.«163176_j8358006358520_2_alg».proof.Proof.Pieces
import proofs.«163176_j8358006358520_2_alg».proof.Proof.Payload
import proofs.«163176_j8358006358520_2_alg».proof.Proof.Spec

noncomputable section

open Idealize.ShloMosaic Idealize.ShloMosaic.TcCoe Idealize.SL.Sem

namespace Cert.KernelIdeal.Soma

open Cert.KernelIdeal Cert.KernelIdeal.Gen Cert.SomaSpec

variable (m : (ℓ : Loc nD τ sig) → Buf (Elt Ideal) ℓ)

/-- The block window 0 reads at point `t` (rows of the reshaped first argument). -/
def blk0 (c : Dev nD) (t : Fin cfg0.N) : FVec Ideal S128x8192 .f32 := iblk m c 0 t
/-- The block window 1 reads at point `t` (rows of the reshaped second argument). -/
def blk1 (c : Dev nD) (t : Fin cfg0.N) : FVec Ideal S128x8192 .f32 := iblk m c 1 t
/-- The block window 2 reads at point `t` (rows of the third argument). -/
def blk2 (c : Dev nD) (t : Fin cfg0.N) : FVec Ideal S128x8192 .f32 := iblk m c 2 t

/-- Point `n`'s contribution (zero beyond the grid). -/
def ptDelta (c : Dev nD) (n : ℕ) : ℝ :=
  if h : n < cfg0.N then blkDelta (blk0 m c ⟨n, h⟩) (blk1 m c ⟨n, h⟩) (blk2 m c ⟨n, h⟩) else 0

/-- A point that starts a row leaves the tile holding its own contribution. -/
theorem step_A (c : Dev nD) (t : Fin cfg0.N) (h0 : t.val % 32 = 0) :
    outsAt0 m c t.val t.isLt = cell (blkDelta (blk0 m c t) (blk1 m c t) (blk2 m c t)) :=
  (outsAt0_A m c t h0).trans <|
    (out_A (F := Ideal) c (grid0.coords t) (ms0_0 t) (hs0_0 t) (ms0_1 t) (hs0_1 t) (ms0_2 t) (hs0_2 t) (ms0_3 t) (hs0_3 t)
      ((hcond0_0 t).mpr h0) (blk0 m c t) (blk1 m c t) (blk2 m c t)).trans <| by
    rw [pay2_eq, pay1_cell, zero_add]

/-- Any other point adds its contribution to what the point before left. -/
theorem step_B (c : Dev nD) (t : Fin cfg0.N) (h0 : ¬t.val % 32 = 0) (v : ℝ)
    (hprev : outsAt0 m c (t.val - 1) (Nat.lt_of_le_of_lt (Nat.sub_le _ _) t.isLt) = cell v) :
    outsAt0 m c t.val t.isLt = cell (v + blkDelta (blk0 m c t) (blk1 m c t) (blk2 m c t)) :=
  (outsAt0_B m c t h0).trans <|
    (out_B (F := Ideal) c (grid0.coords t) (ms0_0 t) (hs0_0 t) (ms0_1 t) (hs0_1 t) (ms0_2 t) (hs0_2 t) (ms0_3 t) (hs0_3 t)
      (fun h => h0 ((hcond0_0 t).mp h)) (blk0 m c t) (blk1 m c t) (blk2 m c t)
      (outsAt0 m c (t.val - 1) (Nat.lt_of_le_of_lt (Nat.sub_le _ _) t.isLt))).trans <| by
    rw [hprev, pay1_cell]

/-- After point `n` the tile holds, at cell (0, 0), the running sum of the contributions restarted every 32 points. -/
theorem outsAt_eq (c : Dev nD) : ∀ (n : ℕ) (h : n < cfg0.N), outsAt0 m c n h = cell (acc (ptDelta m c) n)
  | 0, h => by
    refine (step_A m c ⟨0, h⟩ rfl).trans ?_
    show _ = cell (ptDelta m c 0)
    unfold ptDelta
    rw [dif_pos h]
  | n + 1, h => by
    by_cases hmod : (n + 1) % 32 = 0
    · refine (step_A m c ⟨n + 1, h⟩ hmod).trans ?_
      rw [acc_reset _ _ hmod]
      unfold ptDelta
      rw [dif_pos h]
    · refine (step_B m c ⟨n + 1, h⟩ hmod (acc (ptDelta m c) n) (outsAt_eq c n (Nat.lt_of_succ_lt h))).trans ?_
      rw [acc_step _ _ hmod]
      unfold ptDelta
      rw [dif_pos h]

end Cert.KernelIdeal.Soma

end
-- ==== Proof.Blocks.lean ====
/-
  The blocks the windows read are rows of the three arrays.

  All three input windows use the index map (p, i) ↦ (32 p + i, 0) with blocks of 128 × 8192, so at the grid's `t`-th
  point (t = 32 p + i) each reads rows `128 t … 128 t + 127` of its array, all columns. Windows 0 and 1 stage the host's
  row-major reshapes of the first two (flat) arguments, window 2 the third argument itself. Hence a point's contribution
  is the specification's block difference of those arrays.
-/
import proofs.«163176_j8358006358520_2_alg».proof.Proof.Accum
import Idealize.ShloMosaic.Lib.StableHlo.Run

noncomputable section

open Idealize.ShloMosaic Idealize.ShloMosaic.TcCoe Idealize.SL.Sem Idealize.ShloMosaic.ValueIdx

namespace Cert.KernelIdeal.Soma

open Cert.KernelIdeal Cert.KernelIdeal.Gen Cert.SomaSpec

variable (m : (ℓ : Loc nD τ sig) → Buf (Elt Ideal) ℓ)

/-- The three arrays as the region finds them. -/
def arr0 (c : Dev nD) : FVec Ideal Sq .f32 := V m c main_v0
def arr1 (c : Dev nD) : FVec Ideal Sq .f32 := V m c main_v1
def arr2 (c : Dev nD) : FVec Ideal Sq .f32 := V m c main_arg2

/-- A grid point as one of the 64 blocks of rows. -/
def pt (t : Fin cfg0.N) : Fin 64 := ⟨t.val, lt_of_lt_of_eq t.isLt (show cfg0.N = 64 from N_0)⟩

/-- The input windows' index maps over the grid: block row `t`, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Window 0's block at point `t`, entry (r, c), is the array's entry (128 t + r, c). -/
theorem blk0_apply (c : Dev nD) (t : Fin cfg0.N) (r : Fin 128) (cc : Fin 8192) :
    blk0 m c t (ix2 r cc) = arr0 m c (ix2 (row (pt t) r) cc) := by
  unfold blk0 iblk arr0
  rw [View.read_apply]
  show V m c main_v0 _ = V m c main_v0 _
  refine congrArg (V m c main_v0) (funext fun a => Fin.ext ?_)
  match a with
  | ⟨0, _⟩ =>
    show win0_0.index t 0 * 128 + 1 * r.val = t.val * 128 + r.val
    rw [(idx0 t).1]; omega
  | ⟨1, _⟩ =>
    show win0_0.index t 1 * 8192 + 1 * cc.val = cc.val
    rw [(idx0 t).2]; omega

/-- Window 1's likewise. -/
theorem blk1_apply (c : Dev nD) (t : Fin cfg0.N) (r : Fin 128) (cc : Fin 8192) :
    blk1 m c t (ix2 r cc) = arr1 m c (ix2 (row (pt t) r) cc) := by
  unfold blk1 iblk arr1
  rw [View.read_apply]
  show V m c main_v1 _ = V m c main_v1 _
  refine congrArg (V m c main_v1) (funext fun a => Fin.ext ?_)
  match a with
  | ⟨0, _⟩ =>
    show win0_1.index t 0 * 128 + 1 * r.val = t.val * 128 + r.val
    rw [(idx1 t).1]; omega
  | ⟨1, _⟩ =>
    show win0_1.index t 1 * 8192 + 1 * cc.val = cc.val
    rw [(idx1 t).2]; omega

/-- Window 2's likewise. -/
theorem blk2_apply (c : Dev nD) (t : Fin cfg0.N) (r : Fin 128) (cc : Fin 8192) :
    blk2 m c t (ix2 r cc) = arr2 m c (ix2 (row (pt t) r) cc) := by
  unfold blk2 iblk arr2
  rw [View.read_apply]
  show V m c main_arg2 _ = V m c main_arg2 _
  refine congrArg (V m c main_arg2) (funext fun a => Fin.ext ?_)
  match a with
  | ⟨0, _⟩ =>
    show win0_2.index t 0 * 128 + 1 * r.val = t.val * 128 + r.val
    rw [(idx2 t).1]; omega
  | ⟨1, _⟩ =>
    show win0_2.index t 1 * 8192 + 1 * cc.val = cc.val
    rw [(idx2 t).2]; omega

/-- So a point's contribution is the specification's block difference of the three arrays. -/
theorem blkDelta_eq (c : Dev nD) (t : Fin cfg0.N) :
    blkDelta (blk0 m c t) (blk1 m c t) (blk2 m c t) = delta (arr0 m c) (arr1 m c) (arr2 m c) (pt t) := by
  unfold blkDelta delta blkCount blockCount
  have hs : ∀ (r : Fin 128) (cc : Fin 8192), synB (blk0 m c t) (blk2 m c t) r cc
      = synA (arr0 m c) (arr2 m c) (ix2 (row (pt t) r) cc) := fun r cc => by
    unfold synB synA
    rw [blk0_apply, blk2_apply]
  have hf : ∀ (r : Fin 128) (cc : Fin 8192), featB (blk1 m c t) r cc
      = featA (arr1 m c) (ix2 (row (pt t) r) cc) := fun r cc => by
    unfold featB featA
    rw [blk1_apply]
  simp only [hs, hf]

/-- The contributions of the points are the block differences, extended by zero beyond the grid. -/
theorem ptDelta_eq (c : Dev nD) : ptDelta m c = extend (delta (arr0 m c) (arr1 m c) (arr2 m c)) := by
  funext n
  unfold ptDelta extend
  have hN : cfg0.N = 64 := N_0
  by_cases h : n < 64
  · rw [dif_pos (show n < cfg0.N by rw [hN]; exact h), dif_pos h, blkDelta_eq]
    rfl
  · rw [dif_neg (show ¬n < cfg0.N by rw [hN]; exact h), dif_neg h]

/-! ## The arrays are the host's reshapes of the arguments -/

/-- Window 0's array is the first argument reshaped to 8192 × 8192. -/
theorem arr0_eq (c : Dev nD) :
    arr0 m c = shapeCast Sq (m ((c : Thread nD τ).loc main_arg0)) Facts₀.shapeCasts_S67108864_S8192x8192 := by
  unfold arr0
  show StableHlo.after hostOps0 (fun b => m (c, b)) (Proc.devRef .tc main_v0) = _
  after_results
  rfl

/-- Window 1's array is the second argument reshaped to 8192 × 8192. -/
theorem arr1_eq (c : Dev nD) :
    arr1 m c = shapeCast Sq (m ((c : Thread nD τ).loc main_arg1)) Facts₀.shapeCasts_S67108864_S8192x8192 := by
  unfold arr1
  show StableHlo.after hostOps0 (fun b => m (c, b)) (Proc.devRef .tc main_v1) = _
  after_results
  rfl

/-- Window 2's array is the third argument. -/
theorem arr2_eq (c : Dev nD) : arr2 m c = m ((c : Thread nD τ).loc main_arg2) := V_main_arg2 m c

end Cert.KernelIdeal.Soma

end
-- ==== Proof.Final.lean ====
/-
  The kernel's result.

  The output window's block index is the grid row `p = t / 32`, and the block is written back after the last point of each
  row (t = 31 and t = 63). So the 2 × 8 × 128 array the region leaves holds, in slab `p`, the one-live-cell tile of the
  running sum after point `32 p + 31`. The host then adds up all 2 · 8 · 128 entries from zero: only the two live cells
  contribute, and the two running sums add up to the sum of all 64 contributions, which is the number of synapses minus
  the number of features of the whole arrays.
-/
import proofs.«163176_j8358006358520_2_alg».proof.Proof.Blocks
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Soma

open Cert.KernelIdeal Cert.KernelIdeal.Gen Cert.SomaSpec Cert.LibCount

variable (m : (ℓ : Loc nD τ sig) → Buf (Elt Ideal) ℓ) (ρ : Dev nD → PrngReg)

/-- The array the region leaves: slab `p` is zero except at cell (0, 0), which holds the running sum after the last
    point of grid row `p`. -/
def result (c : Dev nD) : FVec Ideal S2x8x128 .f32 := fun i =>
  if (i 1).val = 0 ∧ (i 2).val = 0 then ((acc (ptDelta m c) (32 * (i 0).val + 31) : ℝ) : EReal) else 0

/-- The output window's index map over the grid: slab `t / 32`, the whole 8 × 128 tile. -/
theorem idx3 : ∀ t : Fin cfg0.N, win0_3.index t (0 : Fin 3) = t.val / 32 ∧ win0_3.index t (1 : Fin 3) = 0
    ∧ win0_3.index t (2 : Fin 3) = 0 :=
  (by decide +kernel : ∀ t : Fin grid0.N, win0_3.index t (0 : Fin 3) = t.val / 32 ∧ win0_3.index t (1 : Fin 3) = 0
    ∧ win0_3.index t (2 : Fin 3) = 0)

/-- What a flushing point (t ≡ 31 mod 32) writes back is its block of `result`. -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3, outsAt_eq]
  have h31 : t.val % 32 = 31 := (flush0_3 t).mp hf
  obtain ⟨e0, e1, e2⟩ := idx3 t
  funext j
  show cell (acc (ptDelta m c) t.val) j = result m c (((cfg0.win 3).blk t).view.emb j)
  have c0 : ((((cfg0.win 3).blk t).view.emb j) 0).val = t.val / 32 := by
    show win0_3.index t (0 : Fin 3) * 1 + 1 * (j 0).val = _
    have hj : (j 0).val < 1 := (j 0).isLt
    rw [e0]; omega
  have c1 : ((((cfg0.win 3).blk t).view.emb j) 1).val = (j 1).val := by
    show win0_3.index t (1 : Fin 3) * 8 + 1 * (j 1).val = _
    rw [e1]; omega
  have c2 : ((((cfg0.win 3).blk t).view.emb j) 2).val = (j 2).val := by
    show win0_3.index t (2 : Fin 3) * 128 + 1 * (j 2).val = _
    rw [e2]; omega
  unfold cell result
  rw [c0, c1, c2, show 32 * (t.val / 32) + 31 = t.val by omega]

/-- An index of the array is in point `t`'s block iff each coordinate is in the block's range on its axis. -/
theorem mem_blk (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v2).slice (win0_3.rect t)).set ↔ _
  rw [View.set_slice_whole, Rect.mem_set_unit]
  exact Iff.rfl

/-- Every index of the array lies in the block written back after the last point of its slab's grid row. -/
theorem cover (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  have hN : cfg0.N = 64 := N_0
  have ht : 32 * (i 0).val + 31 < cfg0.N := by rw [hN]; omega
  refine ⟨⟨32 * (i 0).val + 31, ht⟩, (flush0_3 _).mpr (by show (32 * (i 0).val + 31) % 32 = 31; omega), ?_⟩
  obtain ⟨e0, e1, e2⟩ := idx3 ⟨32 * (i 0).val + 31, ht⟩
  have e0' : win0_3.index ⟨32 * (i 0).val + 31, ht⟩ (0 : Fin 3) = (i 0).val := by
    rw [e0]; show (32 * (i 0).val + 31) / 32 = (i 0).val; omega
  rw [mem_blk]
  intro a
  match a with
  | ⟨0, _⟩ =>
    show win0_3.index ⟨32 * (i 0).val + 31, ht⟩ (0 : Fin 3) * 1 ≤ (i 0).val
      ∧ (i 0).val < win0_3.index ⟨32 * (i 0).val + 31, ht⟩ (0 : Fin 3) * 1 + 1
    rw [e0']; omega
  | ⟨1, _⟩ =>
    show win0_3.index ⟨32 * (i 0).val + 31, ht⟩ (1 : Fin 3) * 8 ≤ (i 1).val
      ∧ (i 1).val < win0_3.index ⟨32 * (i 0).val + 31, ht⟩ (1 : Fin 3) * 8 + 8
    rw [e1]; omega
  | ⟨2, _⟩ =>
    show win0_3.index ⟨32 * (i 0).val + 31, ht⟩ (2 : Fin 3) * 128 ≤ (i 2).val
      ∧ (i 2).val < win0_3.index ⟨32 * (i 0).val + 31, ht⟩ (2 : Fin 3) * 128 + 128
    rw [e2]; omega

/-- So the array the region leaves is `result`. -/
theorem final (c : Dev nD) : (dats m 0 c).arrAt 3 cfg0.N = result m c :=
  (dats m 0 c).arrAt_eq_of_cover 3 (result m c) (flushed_eq m c) cover

/-- The sum of every entry of `result` is the sum of the two rows' running sums: the 64 contributions. -/
theorem sum_result (c : Dev nD) :
    (∑ i : S2x8x128.Idx, result m c i) = ((∑ t : Fin 64, delta (arr0 m c) (arr1 m c) (arr2 m c) t : ℝ) : EReal) := by
  rw [sum_idx3]
  have hcell : ∀ (p : Fin 2) (a : Fin 8) (b : Fin 128), result m c (ix3 p a b)
      = if a.val = 0 ∧ b.val = 0 then ((acc (ptDelta m c) (32 * p.val + 31) : ℝ) : EReal) else 0 := fun _ _ _ => rfl
  have hrow : ∀ p : Fin 2, (∑ a : Fin 8, ∑ b : Fin 128, result m c (ix3 p a b))
      = ((acc (ptDelta m c) (32 * p.val + 31) : ℝ) : EReal) := fun p => by
    rw [Finset.sum_eq_single (0 : Fin 8), Finset.sum_eq_single (0 : Fin 128)]
    · rw [hcell]; exact if_pos ⟨rfl, rfl⟩
    · intro b _ hb
      rw [hcell]; exact if_neg fun h => hb (Fin.ext h.2)
    · intro h; exact absurd (Finset.mem_univ _) h
    · intro a _ ha
      exact Finset.sum_eq_zero fun b _ => by rw [hcell]; exact if_neg fun h => ha (Fin.ext h.1)
    · intro h; exact absurd (Finset.mem_univ _) h
  simp only [hrow]
  rw [Fin.sum_univ_two, ← EReal.coe_add, ptDelta_eq]
  exact congrArg _ (acc_total _)

/-- The host's sum over all axes of the region's array, started from zero, is the whole-array count difference. -/
theorem tail_eq (c : Dev nD) :
    Pipeline.afterTail₀ cfgs (dats m) 0 (V0 m) [hostOps1] c main_v3
      = fun _ => total (arr0 m c) (arr1 m c) (arr2 m c) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = result m c :=
    (Pipeline.withArrays_arr spec0 launch0.win.arr_inj c _ _ 3).trans (final m c)
  rw [hA]
  funext j
  show Ideal.hostReduceAdd _ (result m c) (Ideal.ofBits .f32 0x00000000#32) j = _
  rw [Ideal.hostReduceAdd_total _ (fun b => b.elim0), Ideal.ofBits_zero_f32, zero_add, sum_result, sum_delta]

/-- The kernel's value as a function of the three arguments: the count difference of the reshaped first two and the third. -/
def kval (c : Dev nD) : EReal :=
  total (shapeCast Sq (m ((c : Thread nD τ).loc main_arg0)) Facts₀.shapeCasts_S67108864_S8192x8192)
    (shapeCast Sq (m ((c : Thread nD τ).loc main_arg1)) Facts₀.shapeCasts_S67108864_S8192x8192)
    (m ((c : Thread nD τ).loc main_arg2))

/-- The tail's result in terms of the arguments. -/
theorem tail_kval (c : Dev nD) :
    Pipeline.afterTail₀ cfgs (dats m) 0 (V0 m) [hostOps1] c main_v3 = fun _ => kval m c := by
  rw [tail_eq, arr0_eq, arr1_eq, arr2_eq]
  rfl

/-- The idealized kernel's run: every weakly fair execution ends with the result at the count difference and the
    arguments unchanged. -/
theorem run : θ_run defs (onTc (τ := τ) (main (F := Ideal))) ⟨m, fun _ => 0, ρ⟩ fun r => ∀ c : Dev nD,
      r.2.mem ((c.tc : Thread nD τ).loc main_v3) = (fun _ => kval m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_kval m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Soma

end
-- ==== Proof.RefValue.lean ====
/-
  The reference's result is the count difference.

  The reference compares the flat first argument with 1/2 and reshapes the resulting mask to 8192 × 8192 (the same entries
  as comparing the reshaped argument), selects 1 where the mask is set and the third argument elsewhere, and counts the
  entries above 0: since 1 > 0, an entry counts exactly when the mask is set or the third argument exceeds 0 — the
  synapse bit. It counts the reshaped second argument's entries above 0 likewise. Both counts are 32-bit integer sums of
  at most 2^26 ones, so they do not wrap, and converted to floats they are the exact counts; the result is their
  difference.
-/
import proofs.«163176_j8358006358520_2_alg».proof.Proof.Gen.ReferenceIdeal.Read
import proofs.«163176_j8358006358520_2_alg».proof.Proof.Spec
import Idealize.ShloMosaic.PureOps.IdealRules

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.SomaSpec Cert.LibCount

/-- Selecting 1 under a mask bit and then comparing with 0 is the mask bit or-ed with the comparison: 1 exceeds 0. -/
theorem cmp_select (b : BitVec 1) (x : Ideal .f32) :
    FloatOps.cmpf (F := Ideal) (φ := .f32) .ogt (Scalar.select b (Ideal.ofBits .f32 0x3F800000#32) x) (Ideal.ofBits .f32 0x00000000#32)
      = IntOp.ori b (FloatOps.cmpf (F := Ideal) (φ := .f32) .ogt x (Ideal.ofBits .f32 0x00000000#32)) := by
  have h1 : Ideal.ofBits .f32 0x3F800000#32 = 1 := IdealRules.sign_bit.ideal_onePat .f32
  rw [h1, Ideal.ofBits_zero_f32]
  by_cases hb : b = 1#1
  · subst hb
    rw [select_one]
    have h10 : FloatOps.cmpf (F := Ideal) (φ := .f32) .ogt (1 : Ideal .f32) (0 : Ideal .f32) = 1#1 := by
      show Ideal.cmp .ogt (1 : EReal) 0 = 1#1
      simp [Ideal.cmp]
    rw [h10]
    generalize FloatOps.cmpf (F := Ideal) (φ := .f32) .ogt x (0 : Ideal .f32) = y
    revert y; decide
  · obtain rfl := eq_zero_of_ne_one hb
    rw [select_zero]
    generalize FloatOps.cmpf (F := Ideal) (φ := .f32) .ogt x (0 : Ideal .f32) = y
    revert y; decide

/-- The reference's first mask, entry by entry, is the synapse bit of the reshaped first argument and the third. -/
theorem syn_bit (x0 : FVec Ideal S67108864 .f32) (x2 : FVec Ideal S8192x8192 .f32) (i : S8192x8192.Idx) :
    val_main_v5 (F := Ideal) x0 x2 i = synA (shapeCast Sq x0 Facts₀.shapeCasts_S67108864_S8192x8192) x2 i := by
  rw [val_main_v5_apply, val_main_v3_apply, val_main_v2_apply, val_main_v1_apply, val_main_v0_apply, val_main_cst_apply,
    val_main_call0_v0_apply, val_main_cst_0_apply, val_main_v4_apply, val_main_cst_1_apply]
  unfold synA
  have e : shapeCast Sq x0 Facts₀.shapeCasts_S67108864_S8192x8192 i = x0 (idx_main_v2 i) :=
    val_main_v9_apply (F := Ideal) x0 i
  rw [e]
  exact cmp_select _ _

/-- The reference's second mask, entry by entry, is the feature bit of the reshaped second argument. -/
theorem feat_bit (x1 : FVec Ideal S67108864 .f32) (i : S8192x8192.Idx) :
    val_main_v11 (F := Ideal) x1 i = featA (shapeCast Sq x1 Facts₀.shapeCasts_S67108864_S8192x8192) i := by
  rw [val_main_v11_apply, val_main_v10_apply, val_main_cst_2_apply]
  rfl

/-- The reference's result is the number of synapses minus the number of features. -/
theorem result_eq (x0 x1 : FVec Ideal S67108864 .f32) (x2 : FVec Ideal S8192x8192 .f32) :
    val_main_v15 (F := Ideal) x0 x1 x2
      = fun _ => total (shapeCast Sq x0 Facts₀.shapeCasts_S67108864_S8192x8192)
          (shapeCast Sq x1 Facts₀.shapeCasts_S67108864_S8192x8192) x2 := by
  funext j
  rw [val_main_v15_apply, val_main_v8_apply, val_main_v14_apply]
  unfold total
  refine congrArg₂ (fun p q : EReal => p - q) ?_ ?_
  · refine (hostCount_sitofp (val_main_v5 (F := Ideal) x0 x2) _ _ _ j (count_lt _)).trans ?_
    simp only [syn_bit]
  · refine (hostCount_sitofp (val_main_v11 (F := Ideal) x1) _ _ _ j (count_lt _)).trans ?_
    simp only [feat_bit]

end Cert.ReferenceIdeal.RefValue

end
-- ==== Proof.lean ====
/-
  The kernel and its reference compute one number: the count of *synapses* minus the count of *features*.

  Inputs: a flat array `s` and a flat array `b` of 2^26 floats and an 8192 × 8192 array `w`. Read `s` and `b` row-major as
  8192 × 8192. An entry is a synapse when `s > 1/2` or `w > 0` there, a feature when `b > 0` there.

  * The reference forms `where(s > 1/2, 1, w) > 0` — the synapse bit, because 1 > 0 — and `b > 0`, sums each mask as 32-bit
    integers (at most 2^26 ones: no wrap, no sign), converts the two sums to floats and subtracts.
  * The kernel walks a 2 × 32 grid; point t = 32 p + i loads rows 128 t … 128 t + 127 of all three arrays, takes the float
    sums of the two 0/1 masks (a lane sum, then a sublane sum), and adds their difference into cell (0, 0) of slab `p` of a
    2 × 8 × 128 accumulator that is reset at i = 0; the host sums the accumulator's 2048 entries.

  At the ideal values a comparison yields a bit for every extended real, so every quantity above is a natural number or a
  difference of two: the equality of the two sides is the rearrangement of a finite sum of naturals into 64 blocks of 128
  rows, and it holds without using that the inputs are finite. The ideal pass rewrote nothing, so the idealized kernel is
  the kernel's own text read at the ideal values.

  The three frames are the generated frame runs (the reference's is its generated run with the result dropped).
  Written here: the general counting lemmas (`Proof/LibCount.lean`), the specification and its law (`Proof/Spec.lean`), the
  body's stores as payload terms (`Proof/Pieces.lean`) and the payloads at an index (`Proof/Payload.lean`), the running
  sum by induction on the grid point (`Proof/Accum.lean`), the windows' blocks as rows of the arrays
  (`Proof/Blocks.lean`), the write-backs, the cover and the host's final sum (`Proof/Final.lean`), and the reference's
  result (`Proof/RefValue.lean`).
-/
import proofs.«163176_j8358006358520_2_alg».proof.Defs
import proofs.«163176_j8358006358520_2_alg».proof.Proof.Gen.Kernel
import proofs.«163176_j8358006358520_2_alg».proof.Proof.Gen.Kernel.Skeleton
import proofs.«163176_j8358006358520_2_alg».proof.Proof.Gen.Kernel.Launch
import proofs.«163176_j8358006358520_2_alg».proof.Proof.Gen.Kernel.Points
import proofs.«163176_j8358006358520_2_alg».proof.Proof.Gen.Kernel.Frame
import proofs.«163176_j8358006358520_2_alg».proof.Proof.Gen.KernelIdeal
import proofs.«163176_j8358006358520_2_alg».proof.Proof.Gen.KernelIdeal.Skeleton
import proofs.«163176_j8358006358520_2_alg».proof.Proof.Gen.KernelIdeal.Launch
import proofs.«163176_j8358006358520_2_alg».proof.Proof.Gen.KernelIdeal.Points
import proofs.«163176_j8358006358520_2_alg».proof.Proof.Gen.KernelIdeal.Frame
import proofs.«163176_j8358006358520_2_alg».proof.Proof.Gen.ReferenceIdeal
import proofs.«163176_j8358006358520_2_alg».proof.Proof.Gen.Pre_finite_inputs
import proofs.«163176_j8358006358520_2_alg».proof.Proof.Gen.ReferenceIdeal.Run
import proofs.«163176_j8358006358520_2_alg».proof.Proof.Gen.ReferenceIdeal.Read
import proofs.«163176_j8358006358520_2_alg».proof.Proof.LibCount
import proofs.«163176_j8358006358520_2_alg».proof.Proof.Final
import proofs.«163176_j8358006358520_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to preserve. -/
theorem preserves : Cert.preserves_Kernel_KernelIdeal := trivial

/-- From memories agreeing on the arguments both programs end with the number of synapses minus the number of features
    of the reshaped first two arguments and the third. -/
theorem algebraic : Cert.algebraic_KernelIdeal_ReferenceIdeal := by
  intro m ρ m' ρ' _ hagree
  refine ⟨fun c => fun _ => Cert.KernelIdeal.Soma.kval m c, Cert.KernelIdeal.Soma.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
